-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S2000x128 : Shape := ⟨2, ![2000, 128]⟩
abbrev S1x128 : Shape := ⟨2, ![1, 128]⟩

abbrev nBuf : Space → Nat
  | .hbm => 43
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  The program is four segments: a stretch of host operations (the first aggregation), the first kernel region over
  50 blocks of 2000 rows, a second stretch of host operations (the second aggregation), the second kernel region.
  Every weakly fair execution passes through them in order and ends with every unscoped buffer at the contents the
  last boundary names; read at the result buffer that is the second region's output array after its 50 write-backs,
  and read at the arguments it is what they held at launch.
-/
import proofs.«135996_j16355235463442_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the run is the second region's output array after all its write-backs. -/
theorem result_arr (c : Dev nD) :
    W4 m ρ c (Proc.devRef .tc main_v27) = (dat1 (V3 m ρ) c).arrAt 4 cfg1.N :=
  W4_arr m ρ c 4

set_option backward.isDefEq.respectTransparency.types false in
/-- Every weakly fair execution terminates, nothing faulting; the result buffer ends at the last boundary's contents
    and the arguments as launched. -/
theorem run : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibDenseBlock.lean ====
/-
  A dense layer with a bias vector, read at an entry — as one whole-array function, and as the matrix unit computes
  it on a block of rows.

  On the extended reals narrowing an operand to bf16 changes nothing and a product accumulated from zero is the plain
  sum over the contracted coordinate, so a block computed as
      matmul(bf16(x), bf16(w), 0) + rows(row(b))
  is at entry (p, q) the row p of x against the column q of w, plus b(q): the same reading as the dense layer whose
  bias row is the vector b cast to a row.  When the block's rows are rows of a larger array, the block's entries are
  the larger array's dense layer at the shifted rows (`rowDot_of_row`).
-/
import proofs.«135996_j16355235463442_1_alg».proof.Proof.LibDense
import Idealize.ShloMosaic.Lib.ValueLayout

noncomputable section

namespace Cert.Lib.DenseBlock

open Idealize.ShloMosaic Idealize.ShloMosaic.ValueIdx Cert.Lib.Dense
open scoped BigOperators

/-- Zero offsets, however spelt. -/
theorem zeros2 : (![0, 0] : Fin 2 → Nat) = fun _ => 0 := funext fun a => by fin_cases a <;> rfl
theorem zeros1 : (![0] : Fin 1 → Nat) = fun _ => 0 := funext fun a => by fin_cases a <;> rfl

/-- A dense layer whose bias row is a vector cast to a row, at entry `(p, q)`: row `p` of `x` against column `q` of
    `w`, plus the bias vector's entry `q`. -/
theorem dense_vec_apply {M K N : ℕ} (x : (⟨2, ![M, K]⟩ : Shape).Idx → EReal) (w : (⟨2, ![K, N]⟩ : Shape).Idx → EReal)
    (b : (⟨1, ![N]⟩ : Shape).Idx → EReal) (hc : (⟨1, ![N]⟩ : Shape).ShapeCasts ⟨2, ![1, N]⟩) (p : Fin M) (q : Fin N) :
    dense id x w (shapeCast ⟨2, ![1, N]⟩ b hc) (ix2 p q) = rowDot x w p q + b (ix1 q) := by
  rw [dense_ix2]
  exact congrArg (fun z : EReal => rowDot x w p q + z) (shapeCast_a_1a_apply b hc 0 q)

section Block

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- The same layer on the matrix unit: both operands narrowed to bf16 (the identity on the extended reals), the
    product accumulated from zero, the bias vector cast to a row and spread over the rows. -/
theorem mxu_dense_apply (x : FVec Ideal ⟨2, ![M, K]⟩ .f32) (w : FVec Ideal ⟨2, ![K, N]⟩ .f32) (b : FVec Ideal ⟨1, ![N]⟩ .f32)
    (hbits : FTy.bits .bf16 < FTy.bits .f32) (hc : (⟨1, ![N]⟩ : Shape).ShapeCasts ⟨2, ![1, N]⟩)
    (hbr : (⟨2, ![1, N]⟩ : Shape).Broadcasts ⟨2, ![M, N]⟩) (p : Fin M) (q : Fin N) :
    addf (F := Ideal) (matmul D none (truncf .bf16 x hbits) (truncf .bf16 w hbits) (constant ⟨2, ![M, N]⟩ .f32 0x00000000#32))
        (broadcastTo ⟨2, ![M, N]⟩ (shapeCast ⟨2, ![1, N]⟩ b hc) hbr) (ix2 p q)
      = rowDot x w p q + b (ix1 q) := by
  refine congrArg₂ (fun u v : EReal => u + v) ?_ ?_
  · exact matmul_zero_at D hlc hrc hln hrn hlb hrb (truncf .bf16 x hbits) (truncf .bf16 w hbits) p q
  · exact (broadcastTo_1b_ab_apply _ hbr p q).trans (shapeCast_a_1a_apply b hc 0 q)

end Block

/-- Rows of a block against a matrix: when row `p` of the block is row `r` of the whole array, so are their products
    with any column. -/
theorem rowDot_of_row {m M K N : ℕ} (xb : (⟨2, ![m, K]⟩ : Shape).Idx → EReal) (X : (⟨2, ![M, K]⟩ : Shape).Idx → EReal)
    (wb W : (⟨2, ![K, N]⟩ : Shape).Idx → EReal) (p : Fin m) (r : Fin M) (q : Fin N)
    (hx : ∀ k : Fin K, xb (ix2 p k) = X (ix2 r k)) (hw : ∀ k : Fin K, wb (ix2 k q) = W (ix2 k q)) :
    rowDot xb wb p q = rowDot X W r q :=
  Finset.sum_congr rfl fun k _ => by rw [hx k, hw k]

end Cert.Lib.DenseBlock

end
-- ==== Proof.Spec.lean ====
/-
  A two-layer graph update on the extended reals, as one function of whole arrays.

  With  A  a linear aggregation of node rows (here: gather the rows named by the edges' columns, scale each by its
  edge value, add into the rows named by the edges' rows — but nothing below looks inside it) the update is

      out(p, q) = ( ∑ k, (A x + x)(p, k) · W₁(k, q) + b₁(q) )  +  ( ∑ k, (A (A x ⊙ x))(p, k) · W₂(k, q) + b₂(q) )

  where ⊙ is the entrywise product.  This file states that function in three pieces (the first layer, the interaction
  features, the second layer added to the first) and reads each layer at an entry.
-/
import proofs.«135996_j16355235463442_1_alg».proof.Proof.LibDenseBlock

noncomputable section

namespace Cert.GraphLayer

open Idealize.ShloMosaic Idealize.ShloMosaic.ValueIdx Cert.Lib.Dense Cert.Lib.DenseBlock
open scoped BigOperators

/-- The node arrays, the weight matrices and the bias vectors of the update. -/
abbrev Nodes : Shape := ⟨2, ![100000, 128]⟩
abbrev Weights : Shape := ⟨2, ![128, 128]⟩
abbrev Bias : Shape := ⟨1, ![128]⟩

/-- The first layer: the aggregated features plus the features themselves, through a dense layer. -/
def first (lf feat : Nodes.Idx → EReal) (W₁ : Weights.Idx → EReal) (b₁ : Bias.Idx → EReal)
    (hc : Bias.ShapeCasts ⟨2, ![1, 128]⟩) : Nodes.Idx → EReal :=
  dense id (addf (F := Ideal) (φ := .f32) lf feat) W₁ (shapeCast ⟨2, ![1, 128]⟩ b₁ hc)

/-- The interaction features: aggregated features times features, entry by entry. -/
def interact (lf feat : Nodes.Idx → EReal) : Nodes.Idx → EReal :=
  mulf (F := Ideal) (φ := .f32) lf feat

/-- The second layer added to the first: `part₁ + (li · W₂ + b₂)`. -/
def second (part₁ li : Nodes.Idx → EReal) (W₂ : Weights.Idx → EReal) (b₂ : Bias.Idx → EReal)
    (hc : Bias.ShapeCasts ⟨2, ![1, 128]⟩) : Nodes.Idx → EReal :=
  fun i => part₁ i + dense id li W₂ (shapeCast ⟨2, ![1, 128]⟩ b₂ hc) i

/-- The whole update, for an aggregation `agg`. -/
def update (agg : (Nodes.Idx → EReal) → (Nodes.Idx → EReal)) (feat : Nodes.Idx → EReal)
    (W₁ : Weights.Idx → EReal) (b₁ : Bias.Idx → EReal) (W₂ : Weights.Idx → EReal) (b₂ : Bias.Idx → EReal)
    (hc : Bias.ShapeCasts ⟨2, ![1, 128]⟩) : Nodes.Idx → EReal :=
  second (first (agg feat) feat W₁ b₁ hc) (agg (interact (agg feat) feat)) W₂ b₂ hc

theorem first_apply (lf feat : Nodes.Idx → EReal) (W₁ : Weights.Idx → EReal) (b₁ : Bias.Idx → EReal)
    (hc : Bias.ShapeCasts ⟨2, ![1, 128]⟩) (r : Fin 100000) (q : Fin 128) :
    first lf feat W₁ b₁ hc (ix2 r q) = rowDot (addf (F := Ideal) (φ := .f32) lf feat) W₁ r q + b₁ (ix1 q) :=
  dense_vec_apply _ W₁ b₁ hc r q

theorem second_apply (part₁ li : Nodes.Idx → EReal) (W₂ : Weights.Idx → EReal) (b₂ : Bias.Idx → EReal)
    (hc : Bias.ShapeCasts ⟨2, ![1, 128]⟩) (r : Fin 100000) (q : Fin 128) :
    second part₁ li W₂ b₂ hc (ix2 r q) = part₁ (ix2 r q) + (rowDot li W₂ r q + b₂ (ix1 q)) :=
  congrArg (fun z : EReal => part₁ (ix2 r q) + z) (dense_vec_apply li W₂ b₂ hc r q)

end Cert.GraphLayer

end
-- ==== Proof.Region0.lean ====
/-
  The first kernel region, read as whole arrays.

  The region walks 50 grid points; point t sees rows 2000·t … 2000·t + 1999 of the feature array and of the aggregated
  feature array, the whole first weight matrix and the whole first bias vector, and writes the same rows of two
  output arrays: the entrywise product  lf ⊙ feat  and the first dense layer  (lf + feat)·W₁ + b₁.  Since each output
  block is the matching row block of one whole-array function of the region's inputs, and the 50 blocks cover all
  100000 rows, each output array ends holding that function.
-/
import proofs.«135996_j16355235463442_1_alg».proof.Proof.Gen.KernelIdeal.Frame
import proofs.«135996_j16355235463442_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GraphLayer Cert.Lib.Dense Cert.Lib.DenseBlock
open Idealize.ShloMosaic Idealize.ShloMosaic.TcCoe Idealize.ShloMosaic.ValueIdx Idealize.SL.Sem
open Idealize.ShloMosaic.Pipeline (Dat)

/-! ## The body's two stores, at an entry of the block -/

/-- The first store: the aggregated block times the feature block, entry by entry. -/
theorem prod_block (x0 x1 : Vec Ideal S2000x128 .f32) (x2 : Vec Ideal S128x128 .f32) (x3 : Vec Ideal S128 .f32) :
    out0_4 x0 x1 x2 x3 = mulf (F := Ideal) (φ := .f32) x1 x0 := by
  unfold out0_4
  rw [View.canon_unit_zero zeros2]
  simp only [View.ld_unit_zero (S := S2000x128) zeros2]
  unfold k0_pay2 k0_pay1
  exact congrArg (fun z => mulf (F := Ideal) (φ := .f32) z x0) (shapeCast_self x1 _)

/-- The second store, at entry `(p, q)` of the block: row `p` of (aggregated + features) against column `q` of the
    weights, plus the bias. -/
theorem dense_block (x0 x1 : Vec Ideal S2000x128 .f32) (x2 : Vec Ideal S128x128 .f32) (x3 : Vec Ideal S128 .f32)
    (p : Fin 2000) (q : Fin 128) :
    out0_5 x0 x1 x2 x3 (ix2 p q) = rowDot (addf (F := Ideal) (φ := .f32) x1 x0) x2 p q + x3 (ix1 q) := by
  unfold out0_5
  rw [View.canon_unit_zero zeros2]
  simp only [View.ld_unit_zero (S := S2000x128) zeros2, View.ld_unit_zero (S := S128x128) zeros2, View.ld_unit_zero (S := S128) zeros1]
  have e : k0_pay1 (F := Ideal) x1 = x1 := shapeCast_self x1 _
  unfold k0_pay3
  rw [e]
  exact mxu_dense_apply dot_S2000x128_S128x128_S2000x128_1_0_0_1_n_n rfl rfl rfl rfl rfl rfl
    (addf (F := Ideal) (φ := .f32) x1 x0) x2 x3 bitsLt_bf16_f32 shapeCasts_S128_S1x128 broadcasts_S1x128_S2000x128 p q

/-! ## Where a block sits -/

/-- The printed index maps over the grid: the row-blocked windows are at block row `t`, the resident ones at 0. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Nat) (hp : p < 2000) : 2000 * t.val + p < 100000 := by
  have := t.isLt; have hN : cfg0.N = 50 := N_0; omega

section Entry
variable (V : (c : Dev nD) → (b : Ref sig .tc) → Buf (Elt Ideal) ((c : Thread nD τ).loc b))

/-- Row `p` of the feature block at point `t` is row `2000·t + p` of the feature array. -/
theorem feat_block (c : Dev nD) (t : Fin cfg0.N) (p : Fin 2000) (k : Fin 128) :
    (iblk0 V c 0 t : S2000x128.Idx → EReal) (ix2 p k)
      = (V c main_arg0 : S100000x128.Idx → EReal) (ix2 ⟨2000 * t.val + p.val, row_lt t p.val p.isLt⟩ k) := by
  show V c main_arg0 (((cfg0.win 0).blk t).view.emb (ix2 p k)) = V c main_arg0 _
  refine congrArg (V c main_arg0) (funext fun a => Fin.ext ?_)
  obtain ⟨e0, e1, -⟩ := index0 t
  match a with
  | ⟨0, _⟩ => show win0_0.index t (0 : Fin 2) * 2000 + 1 * p.val = 2000 * t.val + p.val; omega
  | ⟨1, _⟩ => show win0_0.index t (1 : Fin 2) * 128 + 1 * k.val = k.val; omega

/-- Row `p` of the aggregated block at point `t` is row `2000·t + p` of the aggregated array. -/
theorem agg_block (c : Dev nD) (t : Fin cfg0.N) (p : Fin 2000) (k : Fin 128) :
    (iblk0 V c 1 t : S2000x128.Idx → EReal) (ix2 p k)
      = (V c main_v12 : S100000x128.Idx → EReal) (ix2 ⟨2000 * t.val + p.val, row_lt t p.val p.isLt⟩ k) := by
  show V c main_v12 (((cfg0.win 1).blk t).view.emb (ix2 p k)) = V c main_v12 _
  refine congrArg (V c main_v12) (funext fun a => Fin.ext ?_)
  obtain ⟨-, -, e0, e1, -⟩ := index0 t
  match a with
  | ⟨0, _⟩ => show win0_1.index t (0 : Fin 2) * 2000 + 1 * p.val = 2000 * t.val + p.val; omega
  | ⟨1, _⟩ => show win0_1.index t (1 : Fin 2) * 128 + 1 * k.val = k.val; omega

/-- The weight block is the weight matrix. -/
theorem weight_block (c : Dev nD) (t : Fin cfg0.N) (k q : Fin 128) :
    (iblk0 V c 2 t : S128x128.Idx → EReal) (ix2 k q) = (V c main_arg2 : S128x128.Idx → EReal) (ix2 k q) := by
  show V c main_arg2 (((cfg0.win 2).blk t).view.emb (ix2 k q)) = V c main_arg2 _
  refine congrArg (V c main_arg2) (funext fun a => Fin.ext ?_)
  obtain ⟨-, -, -, -, e0, e1, -⟩ := index0 t
  match a with
  | ⟨0, _⟩ => show win0_2.index t (0 : Fin 2) * 128 + 1 * k.val = k.val; omega
  | ⟨1, _⟩ => show win0_2.index t (1 : Fin 2) * 128 + 1 * q.val = q.val; omega

/-- The bias block is the bias vector. -/
theorem bias_block (c : Dev nD) (t : Fin cfg0.N) (q : Fin 128) :
    (iblk0 V c 3 t : S128.Idx → EReal) (ix1 q) = (V c main_arg3 : S128.Idx → EReal) (ix1 q) := by
  show V c main_arg3 (((cfg0.win 3).blk t).view.emb (ix1 q)) = V c main_arg3 _
  refine congrArg (V c main_arg3) (funext fun a => Fin.ext ?_)
  obtain ⟨-, -, -, -, -, -, e0, -⟩ := index0 t
  match a with
  | ⟨0, _⟩ => show win0_3.index t (0 : Fin 1) * 128 + 1 * q.val = q.val; omega

end Entry

/-! ## The two output arrays after the region -/

section Arrays
variable (V : (c : Dev nD) → (b : Ref sig .tc) → Buf (Elt Ideal) ((c : Thread nD τ).loc b))

/-- An element of the product window's block at point `t` sits at row `2000·t +` its row, same column. -/
theorem prod_emb (t : Fin cfg0.N) (j : ((cfg0.win 4).xblock (cfg0.grid.coords t)).Idx) :
    ((cfg0.win 4).blk t).view.emb j
      = ix2 (⟨2000 * t.val + (j 0).val, row_lt t _ (j 0).isLt⟩ : Fin 100000) (⟨(j 1).val, (j 1).isLt⟩ : Fin 128) := by
  funext a; apply Fin.ext
  obtain ⟨-, -, -, -, -, -, -, e0, e1, -⟩ := index0 t
  match a with
  | ⟨0, _⟩ => show win0_4.index t (0 : Fin 2) * 2000 + 1 * (j 0).val = 2000 * t.val + (j 0).val; omega
  | ⟨1, _⟩ => show win0_4.index t (1 : Fin 2) * 128 + 1 * (j 1).val = (j 1).val; omega

/-- The same for the dense window's block. -/
theorem dense_emb (t : Fin cfg0.N) (j : ((cfg0.win 5).xblock (cfg0.grid.coords t)).Idx) :
    ((cfg0.win 5).blk t).view.emb j
      = ix2 (⟨2000 * t.val + (j 0).val, row_lt t _ (j 0).isLt⟩ : Fin 100000) (⟨(j 1).val, (j 1).isLt⟩ : Fin 128) := by
  funext a; apply Fin.ext
  obtain ⟨-, -, -, -, -, -, -, -, -, e0, e1⟩ := index0 t
  match a with
  | ⟨0, _⟩ => show win0_5.index t (0 : Fin 2) * 2000 + 1 * (j 0).val = 2000 * t.val + (j 0).val; omega
  | ⟨1, _⟩ => show win0_5.index t (1 : Fin 2) * 128 + 1 * (j 1).val = (j 1).val; omega

/-- WHAT POINT `t` WRITES BACK through the product window is block `t` of `lf ⊙ feat`. -/
theorem prod_flushed (c : Dev nD) (t : Fin cfg0.N) :
    (dat0 V c).flushed 4 t = ((cfg0.win 4).blk t).view.read (Elt Ideal) (interact (V c main_v12) (V c main_arg0)) := by
  show (cfg0.win 4).cut (grid0.coords t) ((dat0 V c).after 4 t) = _
  rw [after0_4]
  funext j
  have hj0 : (j 0).val < 2000 := (j 0).isLt
  have hj1 : (j 1).val < 128 := (j 1).isLt
  have ex : (cfg0.win 4).xinj (grid0.coords t) j = ix2 (⟨(j 0).val, hj0⟩ : Fin 2000) (⟨(j 1).val, hj1⟩ : Fin 128) :=
    funext fun a => Fin.ext (by match a with | ⟨0, _⟩ => rfl | ⟨1, _⟩ => rfl)
  show out0_4 (iblk0 V c 0 t) (iblk0 V c 1 t) (iblk0 V c 2 t) (iblk0 V c 3 t) ((cfg0.win 4).xinj (grid0.coords t) j)
    = interact (V c main_v12) (V c main_arg0) (((cfg0.win 4).blk t).view.emb j)
  rw [prod_emb t j, ex]
  refine (congrFun (prod_block (iblk0 V c 0 t) (iblk0 V c 1 t) (iblk0 V c 2 t) (iblk0 V c 3 t)) _).trans ?_
  exact congrArg₂ (fun u v : EReal => u * v) (agg_block V c t _ _) (feat_block V c t _ _)

/-- WHAT POINT `t` WRITES BACK through the dense window is block `t` of the first layer. -/
theorem dense_flushed (c : Dev nD) (t : Fin cfg0.N) :
    (dat0 V c).flushed 5 t = ((cfg0.win 5).blk t).view.read (Elt Ideal)
      (first (V c main_v12) (V c main_arg0) (V c main_arg2) (V c main_arg3) shapeCasts_S128_S1x128) := by
  show (cfg0.win 5).cut (grid0.coords t) ((dat0 V c).after 5 t) = _
  rw [after0_5]
  funext j
  have hj0 : (j 0).val < 2000 := (j 0).isLt
  have hj1 : (j 1).val < 128 := (j 1).isLt
  have ex : (cfg0.win 5).xinj (grid0.coords t) j = ix2 (⟨(j 0).val, hj0⟩ : Fin 2000) (⟨(j 1).val, hj1⟩ : Fin 128) :=
    funext fun a => Fin.ext (by match a with | ⟨0, _⟩ => rfl | ⟨1, _⟩ => rfl)
  show out0_5 (iblk0 V c 0 t) (iblk0 V c 1 t) (iblk0 V c 2 t) (iblk0 V c 3 t) ((cfg0.win 5).xinj (grid0.coords t) j)
    = first (V c main_v12) (V c main_arg0) (V c main_arg2) (V c main_arg3) shapeCasts_S128_S1x128 (((cfg0.win 5).blk t).view.emb j)
  rw [dense_emb t j, ex, first_apply]
  refine (dense_block (iblk0 V c 0 t) (iblk0 V c 1 t) (iblk0 V c 2 t) (iblk0 V c 3 t) _ _).trans ?_
  refine congrArg₂ (fun u v : EReal => u + v)
    (rowDot_of_row _ _ _ _ _ _ _ (fun k => ?_) (fun k => weight_block V c t k _)) (bias_block V c t _)
  exact congrArg₂ (fun u v : EReal => u + v) (agg_block V c t _ k) (feat_block V c t _ k)

/-- An index is in point `t`'s block of the product window iff each coordinate is in the block's range. -/
theorem prod_mem (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v13_0).slice (win0_4.rect t)).set ↔ _
  rw [View.set_slice_whole, Rect.mem_set_unit]
  exact Iff.rfl

theorem dense_mem (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v13_1).slice (win0_5.rect t)).set ↔ _
  rw [View.set_slice_whole, Rect.mem_set_unit]
  exact Iff.rfl

/-- Row `r` lies in the block of point `r / 2000`: the 50 blocks cover the array. -/
theorem prod_cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_4 _, ?_⟩
  rw [prod_mem]
  obtain ⟨-, -, -, -, -, -, -, e0, e1, -⟩ := index0 ⟨(i 0).val / 2000, ht⟩
  have e0' : win0_4.index ⟨(i 0).val / 2000, ht⟩ (0 : Fin 2) = (i 0).val / 2000 := e0
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0']; omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e1]; omega

theorem dense_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  refine ⟨⟨(i 0).val / 2000, ht⟩, flush0_5 _, ?_⟩
  rw [dense_mem]
  obtain ⟨-, -, -, -, -, -, -, -, -, e0, e1⟩ := index0 ⟨(i 0).val / 2000, ht⟩
  have e0' : win0_5.index ⟨(i 0).val / 2000, ht⟩ (0 : Fin 2) = (i 0).val / 2000 := e0
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0']; omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]; omega

/-- THE PRODUCT ARRAY after the region: `lf ⊙ feat` of the arrays the region was entered with. -/
theorem prod_final (c : Dev nD) : (dat0 V c).arrAt 4 cfg0.N = interact (V c main_v12) (V c main_arg0) :=
  (dat0 V c).arrAt_eq_of_cover 4 _ (fun t _ => prod_flushed V c t) prod_cover

/-- THE FIRST-LAYER ARRAY after the region. -/
theorem dense_final (c : Dev nD) : (dat0 V c).arrAt 5 cfg0.N
    = first (V c main_v12) (V c main_arg0) (V c main_arg2) (V c main_arg3) shapeCasts_S128_S1x128 :=
  (dat0 V c).arrAt_eq_of_cover 5 _ (fun t _ => dense_flushed V c t) dense_cover

end Arrays

end Cert.KernelIdeal.Hand

end
-- ==== Proof.Region1.lean ====
/-
  The second kernel region, read as a whole array.

  Point t sees rows 2000·t … 2000·t + 1999 of the second aggregation `li` and of the first layer's output `part₁`, the
  whole second weight matrix and bias vector, and writes the same rows of  part₁ + (li·W₂ + b₂).  The 50 blocks cover
  all 100000 rows, so the output array ends holding that function of the arrays the region was entered with.
-/
import proofs.«135996_j16355235463442_1_alg».proof.Proof.Gen.KernelIdeal.Frame
import proofs.«135996_j16355235463442_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GraphLayer Cert.Lib.Dense Cert.Lib.DenseBlock
open Idealize.ShloMosaic Idealize.ShloMosaic.TcCoe Idealize.ShloMosaic.ValueIdx Idealize.SL.Sem
open Idealize.ShloMosaic.Pipeline (Dat)

/-- The body's one store at entry `(p, q)` of the block: the first layer's entry plus row `p` of the aggregated block
    against column `q` of the weights plus the bias. -/
theorem sum_block (x0 x1 : Vec Ideal S2000x128 .f32) (x2 : Vec Ideal S128x128 .f32) (x3 : Vec Ideal S128 .f32)
    (p : Fin 2000) (q : Fin 128) :
    out1_4 x0 x1 x2 x3 (ix2 p q) = x1 (ix2 p q) + (rowDot x0 x2 p q + x3 (ix1 q)) := by
  unfold out1_4
  rw [View.canon_unit_zero zeros2]
  simp only [View.ld_unit_zero (S := S2000x128) zeros2, View.ld_unit_zero (S := S128x128) zeros2, View.ld_unit_zero (S := S128) zeros1]
  have e0 : shapeCast S2000x128 x0 shapeCasts_S2000x128_S2000x128 = x0 := shapeCast_self x0 _
  have e1 : shapeCast S2000x128 x1 shapeCasts_S2000x128_S2000x128 = x1 := shapeCast_self x1 _
  unfold k1_pay1
  rw [e0, e1]
  exact congrArg (fun z : EReal => x1 (ix2 p q) + z)
    (mxu_dense_apply dot_S2000x128_S128x128_S2000x128_1_0_0_1_n_n rfl rfl rfl rfl rfl rfl
      x0 x2 x3 bitsLt_bf16_f32 shapeCasts_S128_S1x128 broadcasts_S1x128_S2000x128 p q)

/-- The printed index maps over the grid: the row-blocked windows are at block row `t`, the resident ones at 0. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem row_lt1 (t : Fin cfg1.N) (p : Nat) (hp : p < 2000) : 2000 * t.val + p < 100000 := by
  have := t.isLt; have hN : cfg1.N = 50 := N_1; omega

section Entry
variable (V : (c : Dev nD) → (b : Ref sig .tc) → Buf (Elt Ideal) ((c : Thread nD τ).loc b))

/-- Row `p` of the aggregated block at point `t` is row `2000·t + p` of the aggregated array. -/
theorem agg2_block (c : Dev nD) (t : Fin cfg1.N) (p : Fin 2000) (k : Fin 128) :
    (iblk1 V c 0 t : S2000x128.Idx → EReal) (ix2 p k)
      = (V c main_v26 : S100000x128.Idx → EReal) (ix2 ⟨2000 * t.val + p.val, row_lt1 t p.val p.isLt⟩ k) := by
  show V c main_v26 (((cfg1.win 0).blk t).view.emb (ix2 p k)) = V c main_v26 _
  refine congrArg (V c main_v26) (funext fun a => Fin.ext ?_)
  obtain ⟨e0, e1, -⟩ := index1 t
  match a with
  | ⟨0, _⟩ => show win1_0.index t (0 : Fin 2) * 2000 + 1 * p.val = 2000 * t.val + p.val; omega
  | ⟨1, _⟩ => show win1_0.index t (1 : Fin 2) * 128 + 1 * k.val = k.val; omega

/-- Row `p` of the first layer's block at point `t` is row `2000·t + p` of the first layer's array. -/
theorem part_block (c : Dev nD) (t : Fin cfg1.N) (p : Fin 2000) (k : Fin 128) :
    (iblk1 V c 1 t : S2000x128.Idx → EReal) (ix2 p k)
      = (V c main_v13_1 : S100000x128.Idx → EReal) (ix2 ⟨2000 * t.val + p.val, row_lt1 t p.val p.isLt⟩ k) := by
  show V c main_v13_1 (((cfg1.win 1).blk t).view.emb (ix2 p k)) = V c main_v13_1 _
  refine congrArg (V c main_v13_1) (funext fun a => Fin.ext ?_)
  obtain ⟨-, -, e0, e1, -⟩ := index1 t
  match a with
  | ⟨0, _⟩ => show win1_1.index t (0 : Fin 2) * 2000 + 1 * p.val = 2000 * t.val + p.val; omega
  | ⟨1, _⟩ => show win1_1.index t (1 : Fin 2) * 128 + 1 * k.val = k.val; omega

/-- The weight block is the weight matrix. -/
theorem weight2_block (c : Dev nD) (t : Fin cfg1.N) (k q : Fin 128) :
    (iblk1 V c 2 t : S128x128.Idx → EReal) (ix2 k q) = (V c main_arg4 : S128x128.Idx → EReal) (ix2 k q) := by
  show V c main_arg4 (((cfg1.win 2).blk t).view.emb (ix2 k q)) = V c main_arg4 _
  refine congrArg (V c main_arg4) (funext fun a => Fin.ext ?_)
  obtain ⟨-, -, -, -, e0, e1, -⟩ := index1 t
  match a with
  | ⟨0, _⟩ => show win1_2.index t (0 : Fin 2) * 128 + 1 * k.val = k.val; omega
  | ⟨1, _⟩ => show win1_2.index t (1 : Fin 2) * 128 + 1 * q.val = q.val; omega

/-- The bias block is the bias vector. -/
theorem bias2_block (c : Dev nD) (t : Fin cfg1.N) (q : Fin 128) :
    (iblk1 V c 3 t : S128.Idx → EReal) (ix1 q) = (V c main_arg5 : S128.Idx → EReal) (ix1 q) := by
  show V c main_arg5 (((cfg1.win 3).blk t).view.emb (ix1 q)) = V c main_arg5 _
  refine congrArg (V c main_arg5) (funext fun a => Fin.ext ?_)
  obtain ⟨-, -, -, -, -, -, e0, -⟩ := index1 t
  match a with
  | ⟨0, _⟩ => show win1_3.index t (0 : Fin 1) * 128 + 1 * q.val = q.val; omega

/-- An element of the output window's block at point `t` sits at row `2000·t +` its row, same column. -/
theorem sum_emb (t : Fin cfg1.N) (j : ((cfg1.win 4).xblock (cfg1.grid.coords t)).Idx) :
    ((cfg1.win 4).blk t).view.emb j
      = ix2 (⟨2000 * t.val + (j 0).val, row_lt1 t _ (j 0).isLt⟩ : Fin 100000) (⟨(j 1).val, (j 1).isLt⟩ : Fin 128) := by
  funext a; apply Fin.ext
  obtain ⟨-, -, -, -, -, -, -, e0, e1⟩ := index1 t
  match a with
  | ⟨0, _⟩ => show win1_4.index t (0 : Fin 2) * 2000 + 1 * (j 0).val = 2000 * t.val + (j 0).val; omega
  | ⟨1, _⟩ => show win1_4.index t (1 : Fin 2) * 128 + 1 * (j 1).val = (j 1).val; omega

/-- WHAT POINT `t` WRITES BACK is block `t` of `part₁ + (li·W₂ + b₂)`. -/
theorem sum_flushed (c : Dev nD) (t : Fin cfg1.N) :
    (dat1 V c).flushed 4 t = ((cfg1.win 4).blk t).view.read (Elt Ideal)
      (second (V c main_v13_1) (V c main_v26) (V c main_arg4) (V c main_arg5) shapeCasts_S128_S1x128) := by
  show (cfg1.win 4).cut (grid1.coords t) ((dat1 V c).after 4 t) = _
  rw [after1_4]
  funext j
  have hj0 : (j 0).val < 2000 := (j 0).isLt
  have hj1 : (j 1).val < 128 := (j 1).isLt
  have ex : (cfg1.win 4).xinj (grid1.coords t) j = ix2 (⟨(j 0).val, hj0⟩ : Fin 2000) (⟨(j 1).val, hj1⟩ : Fin 128) :=
    funext fun a => Fin.ext (by match a with | ⟨0, _⟩ => rfl | ⟨1, _⟩ => rfl)
  show out1_4 (iblk1 V c 0 t) (iblk1 V c 1 t) (iblk1 V c 2 t) (iblk1 V c 3 t) ((cfg1.win 4).xinj (grid1.coords t) j)
    = second (V c main_v13_1) (V c main_v26) (V c main_arg4) (V c main_arg5) shapeCasts_S128_S1x128 (((cfg1.win 4).blk t).view.emb j)
  rw [sum_emb t j, ex, second_apply]
  refine (sum_block (iblk1 V c 0 t) (iblk1 V c 1 t) (iblk1 V c 2 t) (iblk1 V c 3 t) _ _).trans ?_
  refine congrArg₂ (fun u v : EReal => u + v) (part_block V c t _ _) ?_
  exact congrArg₂ (fun u v : EReal => u + v)
    (rowDot_of_row _ _ _ _ _ _ _ (fun k => agg2_block V c t _ k) (fun k => weight2_block V c t k _)) (bias2_block V c t _)

/-- An index is in point `t`'s block iff each coordinate is in the block's range. -/
theorem sum_mem (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v27).slice (win1_4.rect t)).set ↔ _
  rw [View.set_slice_whole, Rect.mem_set_unit]
  exact Iff.rfl

/-- Row `r` lies in the block of point `r / 2000`: the 50 blocks cover the array. -/
theorem sum_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  have ht : (i 0).val / 2000 < cfg1.N := by rw [hN]; omega
  refine ⟨⟨(i 0).val / 2000, ht⟩, flush1_4 _, ?_⟩
  rw [sum_mem]
  obtain ⟨-, -, -, -, -, -, -, e0, e1⟩ := index1 ⟨(i 0).val / 2000, ht⟩
  have e0' : win1_4.index ⟨(i 0).val / 2000, ht⟩ (0 : Fin 2) = (i 0).val / 2000 := e0
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e0']; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e1]; omega

/-- THE OUTPUT ARRAY after the region. -/
theorem sum_final (c : Dev nD) : (dat1 V c).arrAt 4 cfg1.N
    = second (V c main_v13_1) (V c main_v26) (V c main_arg4) (V c main_arg5) shapeCasts_S128_S1x128 :=
  (dat1 V c).arrAt_eq_of_cover 4 _ (fun t _ => sum_flushed V c t) sum_cover

end Entry

end Cert.KernelIdeal.Hand

end
-- ==== Proof.KernelValue.lean ====
/-
  The idealized kernel's result as the two-layer update.

  Through the four segments: the first host stretch leaves the aggregation of the features in the buffer the first
  region reads as `lf`; the first region leaves `lf ⊙ feat` and the first layer; the second host stretch aggregates
  `lf ⊙ feat` with the same edge data; the second region adds the second layer to the first.  No stretch writes an
  argument, so every argument is read as launched.  The aggregation is carried as one function and never opened.
-/
import proofs.«135996_j16355235463442_1_alg».proof.Proof.KernelRun
import proofs.«135996_j16355235463442_1_alg».proof.Proof.Region0
import proofs.«135996_j16355235463442_1_alg».proof.Proof.Region1
import Idealize.ShloMosaic.Lib.StableHlo.Run

set_option maxRecDepth 16384

noncomputable section

namespace Cert.KernelIdeal.Hand

open Cert.KernelIdeal Cert.KernelIdeal.Gen Cert.GraphLayer
open Idealize.ShloMosaic Idealize.ShloMosaic.TcCoe Idealize.ShloMosaic.StableHlo Idealize.SL.Sem

/-- The program's aggregation of node rows along the edges `(val, row, col)`: gather the rows named by the column
    indices (a negative index wrapped by the row count), scale each by its edge value, add into zero at the rows
    named by the row indices. -/
def agg (val : (⟨S1600000, .f32⟩ : BufTy).Contents (Elt Ideal)) (row col : (⟨S1600000, .i32⟩ : BufTy).Contents (Elt Ideal))
    (x : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (F := Ideal) (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

variable (m : (ℓ : Loc nD τ sig) → Buf (Elt Ideal) ℓ) (ρ : Dev nD → PrngReg)

/-! ## What the first region is entered with -/

theorem entry0_feat (c : Dev nD) : V1 m ρ c main_arg0 = m ((c.tc : Thread nD τ).loc main_arg0) := by
  show StableHlo.after hostOps0 (W0 m ρ c) (Proc.devRef .tc main_arg0) = _
  after_results
theorem entry0_w (c : Dev nD) : V1 m ρ c main_arg2 = m ((c.tc : Thread nD τ).loc main_arg2) := by
  show StableHlo.after hostOps0 (W0 m ρ c) (Proc.devRef .tc main_arg2) = _
  after_results
theorem entry0_b (c : Dev nD) : V1 m ρ c main_arg3 = m ((c.tc : Thread nD τ).loc main_arg3) := by
  show StableHlo.after hostOps0 (W0 m ρ c) (Proc.devRef .tc main_arg3) = _
  after_results
set_option maxHeartbeats 1000000 in
/-- The aggregated features. -/
theorem entry0_agg (c : Dev nD) : V1 m ρ c main_v12
    = agg (m ((c.tc : Thread nD τ).loc main_arg1)) (m ((c.tc : Thread nD τ).loc main_arg6)) (m ((c.tc : Thread nD τ).loc main_arg7))
        (m ((c.tc : Thread nD τ).loc main_arg0)) := by
  show StableHlo.after hostOps0 (W0 m ρ c) (Proc.devRef .tc main_v12) = _
  after_results_simp
  rfl

/-! ## The edge data, after the first region as at launch -/

theorem mid_val (c : Dev nD) : W2 m ρ c (Proc.devRef .tc main_arg1) = m ((c.tc : Thread nD τ).loc main_arg1) :=
  (W2_of_ne m ρ c main_arg1 (by decide)).trans (by
    show StableHlo.after hostOps0 (W0 m ρ c) (Proc.devRef .tc main_arg1) = _
    after_results)
theorem mid_row (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)
theorem mid_col (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)
theorem mid_w (c : Dev nD) : W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results)
theorem mid_b (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results)

/-- The first region's two output arrays, as functions of the launch contents. -/
theorem mid_prod (c : Dev nD) : W2 m ρ c (Proc.devRef .tc main_v13_0)
    = interact (agg (m ((c.tc : Thread nD τ).loc main_arg1)) (m ((c.tc : Thread nD τ).loc main_arg6)) (m ((c.tc : Thread nD τ).loc main_arg7))
        (m ((c.tc : Thread nD τ).loc main_arg0))) (m ((c.tc : Thread nD τ).loc main_arg0)) := by
  refine (W2_arr m ρ c 4).trans ((prod_final (V1 m ρ) c).trans ?_)
  rw [entry0_agg, entry0_feat]
theorem mid_first (c : Dev nD) : W2 m ρ c (Proc.devRef .tc main_v13_1)
    = first (agg (m ((c.tc : Thread nD τ).loc main_arg1)) (m ((c.tc : Thread nD τ).loc main_arg6)) (m ((c.tc : Thread nD τ).loc main_arg7))
        (m ((c.tc : Thread nD τ).loc main_arg0))) (m ((c.tc : Thread nD τ).loc main_arg0))
        (m ((c.tc : Thread nD τ).loc main_arg2)) (m ((c.tc : Thread nD τ).loc main_arg3)) shapeCasts_S128_S1x128 := by
  refine (W2_arr m ρ c 5).trans ((dense_final (V1 m ρ) c).trans ?_)
  rw [entry0_agg, entry0_feat, entry0_w, entry0_b]

/-! ## What the second region is entered with -/

theorem entry1_part (c : Dev nD) : V3 m ρ c main_v13_1 = W2 m ρ c (Proc.devRef .tc main_v13_1) := by
  show StableHlo.after hostOps1 (W2 m ρ c) (Proc.devRef .tc main_v13_1) = _
  after_results
theorem entry1_w (c : Dev nD) : V3 m ρ c main_arg4 = W2 m ρ c (Proc.devRef .tc main_arg4) := by
  show StableHlo.after hostOps1 (W2 m ρ c) (Proc.devRef .tc main_arg4) = _
  after_results
theorem entry1_b (c : Dev nD) : V3 m ρ c main_arg5 = W2 m ρ c (Proc.devRef .tc main_arg5) := by
  show StableHlo.after hostOps1 (W2 m ρ c) (Proc.devRef .tc main_arg5) = _
  after_results
set_option maxHeartbeats 1000000 in
/-- The second aggregation: of the first region's product array, with the edge data as the first region left it. -/
theorem entry1_agg (c : Dev nD) : V3 m ρ c main_v26
    = agg (W2 m ρ c (Proc.devRef .tc main_arg1)) (W2 m ρ c (Proc.devRef .tc main_arg6)) (W2 m ρ c (Proc.devRef .tc main_arg7))
        (W2 m ρ c (Proc.devRef .tc main_v13_0)) := by
  show StableHlo.after hostOps1 (W2 m ρ c) (Proc.devRef .tc main_v26) = _
  after_results_simp
  rfl

/-! ## The result -/

/-- THE RESULT BUFFER after the run is the two-layer update of the launch contents. -/
theorem value (c : Dev nD) : W4 m ρ c (Proc.devRef .tc main_v27)
    = update (agg (m ((c.tc : Thread nD τ).loc main_arg1)) (m ((c.tc : Thread nD τ).loc main_arg6)) (m ((c.tc : Thread nD τ).loc main_arg7)))
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) shapeCasts_S128_S1x128 := by
  refine (result_arr m ρ c).trans ((sum_final (V3 m ρ) c).trans ?_)
  rw [entry1_part, entry1_agg, entry1_w, entry1_b, mid_first, mid_prod, mid_val, mid_row, mid_col, mid_w, mid_b]
  rfl

/-- The run, read: the result at the update of the launch contents, the arguments unchanged. -/
theorem run_value : θ_run defs (onTc (τ := τ) (main (F := Ideal))) ⟨m, fun _ => 0, ρ⟩ (fun r => ∀ c : Dev nD,
      r.2.mem ((c.tc : Thread nD τ).loc main_v27)
        = update (agg (m ((c.tc : Thread nD τ).loc main_arg1)) (m ((c.tc : Thread nD τ).loc main_arg6)) (m ((c.tc : Thread nD τ).loc main_arg7)))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) shapeCasts_S128_S1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (value m ρ c), (h c).2⟩) (run (F := Ideal) m ρ)

end Cert.KernelIdeal.Hand

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibDenseHost.lean ====
/-
  Dense layers and the combine step, spelt with the host's operations.
-/
import proofs.«135996_j16355235463442_1_alg».proof.Proof.LibDense
import proofs.«135996_j16355235463442_1_alg».proof.Proof.LibIndexNorm
import proofs.«135996_j16355235463442_1_alg».proof.Proof.LibKeepdims

noncomputable section

namespace Cert.Lib.Dense

open Idealize.ShloMosaic Idealize.ShloMosaic.ValueIdx
open scoped BigOperators

/-! ## The same layers spelt with the host's operations

  On the host a dense layer is `act (dot(x, w) + rows(row(b)))`: the bias vector made a row, the row spread over all
  rows.  In the kernel the bias vector is cast to a row and the layer is `dense`.  Entry by entry both are
  `act ((∑ k, x(p, k) · w(k, q)) + b(q))`.  Likewise the combine step: the kernel casts the squared scale vector to a
  column, the host spreads it over the columns. -/

section HostForms

open Cert.Lib.IndexNorm Cert.Lib.Keepdims

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

theorem exists_ix2 {a b : ℕ} (i : (⟨2, ![a, b]⟩ : Shape).Idx) : ∃ (p : Fin a) (q : Fin b), i = ix2 p q :=
  ⟨i 0, i 1, eq_ix2 i⟩

include hlc hrc hln hrn hlb hrb in
/-- A dense layer whose bias row is a vector cast to a row is the host's `act (dot + spread bias)`. -/
theorem dense_eq_host (act : EReal → EReal) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense act x w (shapeCast ⟨2, ![1, N]⟩ b hc)
      = fun i => act (addf (F := Ideal) (Host.dotGeneral D none x w)
          (broadcastInDim ⟨2, ![M, N]⟩ ![0, 1] h₂ (broadcastInDim ⟨2, ![1, N]⟩ ![1] h₁ b)) i) := by
  funext i
  obtain ⟨p, q, rfl⟩ := exists_ix2 i
  rw [dense_ix2]
  refine congrArg act (congrArg₂ (fun a b : EReal => a + b) ?_ ?_)
  · exact (dotGeneral_at D hlc hrc hln hrn hlb hrb x w p q).symm
  · exact (shapeCast_a_1a_apply b hc 0 q).trans (bcast_row_rows_apply b h₁ h₂ p q).symm

include hlc hrc hln hrn hlb hrb in
/-- With tanh: the host's `tanh (dot + spread bias)`. -/
theorem dense_tanh_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense Ideal.tanh x w (shapeCast ⟨2, ![1, N]⟩ b hc)
      = Host.tanh (F := Ideal) (addf (F := Ideal) (Host.dotGeneral D none x w)
          (broadcastInDim ⟨2, ![M, N]⟩ ![0, 1] h₂ (broadcastInDim ⟨2, ![1, N]⟩ ![1] h₁ b))) :=
  (dense_eq_host D hlc hrc hln hrn hlb hrb Ideal.tanh x w b hc h₁ h₂).trans
    (funext fun i => (Ideal.hostUnary_tanh_def _).symm)

include hlc hrc hln hrn hlb hrb in
/-- Without an activation: the host's `dot + spread bias`. -/
theorem dense_id_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense id x w (shapeCast ⟨2, ![1, N]⟩ b hc)
      = addf (F := Ideal) (Host.dotGeneral D none x w)
          (broadcastInDim ⟨2, ![M, N]⟩ ![0, 1] h₂ (broadcastInDim ⟨2, ![1, N]⟩ ![1] h₁ b)) :=
  (dense_eq_host D hlc hrc hln hrn hlb hrb id x w b hc h₁ h₂).trans rfl

include hlc hrc hln hrn hlb hrb in
/-- A dense layer whose bias row is the zero vector cast to a row is the host's plain dot product. -/
theorem dense_zero_eq_dot (x : FVec Ideal ⟨2, ![M, K]⟩ .f32) (w : FVec Ideal ⟨2, ![K, N]⟩ .f32)
    (h₀ : (⟨0, ![]⟩ : Shape).BroadcastsInDim ⟨1, ![N]⟩ ![]) (hc : (⟨1, ![N]⟩ : Shape).ShapeCasts ⟨2, ![1, N]⟩) :
    dense id x w (shapeCast ⟨2, ![1, N]⟩
        (broadcastInDim ⟨1, ![N]⟩ ![] h₀ (constant (F := Ideal) ⟨0, ![]⟩ .f32 0x00000000#32)) hc)
      = Host.dotGeneral D none x w := by
  funext i
  obtain ⟨p, q, rfl⟩ := exists_ix2 i
  rw [dense_ix2]
  have hz : shapeCast ⟨2, ![1, N]⟩ (broadcastInDim ⟨1, ![N]⟩ ![] h₀ (constant (F := Ideal) ⟨0, ![]⟩ .f32 0x00000000#32)) hc
      (ix2 (0 : Fin 1) q) = (0 : EReal) :=
    (shapeCast_a_1a_apply _ hc 0 q).trans
      ((broadcastInDim_apply ![] h₀ _ (ix1 q) ix0 (fun a => a.elim0)).trans Ideal.ofBits_zero_f32)
  show rowDot x w p q + _ = _
  rw [hz, add_zero]
  exact (dotGeneral_at D hlc hrc hln hrn hlb hrb x w p q).symm

/-- The combine step with the squared scale vector cast to a column and the bias vector cast to a row is the host's
    `tanh((a + h · cols(col(d · d))) + rows(row(b)))`. -/
theorem combine_eq_host (a h : FVec Ideal ⟨2, ![M, N]⟩ .f32) (d : FVec Ideal ⟨1, ![M]⟩ .f32) (b : FVec Ideal ⟨1, ![N]⟩ .f32)
    (hc₁ : (⟨1, ![M]⟩ : Shape).ShapeCasts ⟨2, ![M, 1]⟩) (hc₂ : (⟨1, ![N]⟩ : Shape).ShapeCasts ⟨2, ![1, N]⟩)
    (hd₁ : (⟨1, ![M]⟩ : Shape).BroadcastsInDim ⟨2, ![M, 1]⟩ ![0])
    (hd₂ : (⟨2, ![M, 1]⟩ : Shape).BroadcastsInDim ⟨2, ![M, N]⟩ ![0, 1])
    (hb₁ : (⟨1, ![N]⟩ : Shape).BroadcastsInDim ⟨2, ![1, N]⟩ ![1])
    (hb₂ : (⟨2, ![1, N]⟩ : Shape).BroadcastsInDim ⟨2, ![M, N]⟩ ![0, 1]) :
    combine a h (shapeCast ⟨2, ![M, 1]⟩ (mulf (F := Ideal) d d) hc₁) (shapeCast ⟨2, ![1, N]⟩ b hc₂)
      = Host.tanh (F := Ideal) (addf (addf a (mulf h
          (broadcastInDim ⟨2, ![M, N]⟩ ![0, 1] hd₂ (broadcastInDim ⟨2, ![M, 1]⟩ ![0] hd₁ (mulf (F := Ideal) d d)))))
          (broadcastInDim ⟨2, ![M, N]⟩ ![0, 1] hb₂ (broadcastInDim ⟨2, ![1, N]⟩ ![1] hb₁ b))) := by
  funext i
  obtain ⟨p, q, rfl⟩ := exists_ix2 i
  rw [combine_ix2]
  refine congrArg Ideal.tanh (congrArg₂ (fun a b : EReal => a + b) (congrArg₂ (fun a b : EReal => a + b) rfl
    (congrArg₂ (fun a b : EReal => a * b) rfl ?_)) ?_)
  · exact (shapeCast_a_a1_apply _ hc₁ p 0).trans (bcast_col_cols_apply _ hd₁ hd₂ p q).symm
  · exact (shapeCast_a_1a_apply b hc₂ 0 q).trans (bcast_row_rows_apply b hb₁ hb₂ p q).symm

end HostForms

end Cert.Lib.Dense

end
-- ==== Proof.RefValue.lean ====
/-
  The reference, read as the two-layer update.

  The reference aggregates twice with the same edge data: gather the rows named by the (wrapped) column indices, scale
  each gathered row by its edge value, add the scaled rows into zero at the rows named by the row indices.  Calling
  that map `agg`, the reference's result is, entry by entry,
      ((agg x + x)·W₁ + b₁) + (agg (agg x ⊙ x)·W₂ + b₂)
  with each matrix product the host's general dot product and each bias vector made a row and spread over the rows —
  which is the dense layer of the specification.  The aggregation itself is never opened.
-/
import proofs.«135996_j16355235463442_1_alg».proof.Proof.Gen.ReferenceIdeal.Read
import proofs.«135996_j16355235463442_1_alg».proof.Proof.Spec
import proofs.«135996_j16355235463442_1_alg».proof.Proof.LibDenseHost

noncomputable section

namespace Cert.ReferenceIdeal.Hand

open Cert.ReferenceIdeal Cert.ReferenceIdeal.Gen Cert.ReferenceIdeal.Read Cert.GraphLayer Cert.Lib.Dense
open Idealize.ShloMosaic Idealize.ShloMosaic.ValueIdx

/-- The reference's aggregation of node rows along the edges `(val, row, col)`: the scatter-add of the scaled
    gathered rows into zero. -/
def agg (val : (⟨S1600000, .f32⟩ : BufTy).Contents (Elt Ideal)) (row col : (⟨S1600000, .i32⟩ : BufTy).Contents (Elt Ideal))
    (x : (⟨S100000x128, .f32⟩ : BufTy).Contents (Elt Ideal)) : (⟨S100000x128, .f32⟩ : BufTy).Contents (Elt Ideal) :=
  val_main_v12 (F := Ideal) x val row col

/-- The second aggregation is the same map, applied to the interaction features. -/
theorem second_agg (x0 : (⟨S100000x128, .f32⟩ : BufTy).Contents (Elt Ideal)) (x1 : (⟨S1600000, .f32⟩ : BufTy).Contents (Elt Ideal))
    (x6 x7 : (⟨S1600000, .i32⟩ : BufTy).Contents (Elt Ideal)) :
    val_main_v31 (F := Ideal) x0 x1 x6 x7 = agg x1 x6 x7 (interact (agg x1 x6 x7 x0) x0) := rfl

/-- The reference's result is the two-layer update over its aggregation. -/
theorem result_eq (x0 : (⟨S100000x128, .f32⟩ : BufTy).Contents (Elt Ideal)) (x1 : (⟨S1600000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 x7 : (⟨S1600000, .i32⟩ : BufTy).Contents (Elt Ideal)) (hc : Bias.ShapeCasts ⟨2, ![1, 128]⟩) :
    val_main_v36 (F := Ideal) x0 x1 x2 x3 x4 x5 x6 x7 = update (agg x1 x6 x7) x0 x2 x3 x4 x5 hc := by
  have h₁ := dense_id_eq_host dot_S100000x128_S128x128_S100000x128_1_0_0_1_n_n rfl rfl rfl rfl rfl rfl
    (addf (F := Ideal) (φ := .f32) (agg x1 x6 x7 x0) x0) x2 x3 hc bcast_S128_S1x128_1 bcast_S1x128_S100000x128_0_1
  have h₂ := dense_id_eq_host dot_S100000x128_S128x128_S100000x128_1_0_0_1_n_n rfl rfl rfl rfl rfl rfl
    (agg x1 x6 x7 (interact (agg x1 x6 x7 x0) x0)) x4 x5 hc bcast_S128_S1x128_1 bcast_S1x128_S100000x128_0_1
  unfold update second first
  rw [h₁, h₂]
  rfl

end Cert.ReferenceIdeal.Hand

end
-- ==== Proof.lean ====
/-
  Two graph-convolution layers with an interaction term, kernel against reference, on the extended reals.

  With  agg  the aggregation of node rows along the edges (gather the source rows, scale by the edge values, add into the
  destination rows), both programs compute, entry by entry,

      out = ((agg x + x)·W₁ + b₁) + (agg (agg x ⊙ x)·W₂ + b₂).

  The kernel program aggregates on the host and computes the two dense layers and the entrywise product in two kernel
  regions over 50 blocks of 2000 rows, its matrix products on the matrix unit with operands narrowed to bf16 — the
  identity on the extended reals — and accumulated from zero; the reference does everything on the host.  A matrix
  product accumulated from zero is the host's general dot product (both are the sum over the contracted coordinate),
  the order of the three additions is the same on both sides, and the aggregation is the same function on both sides,
  so no law of the extended reals beyond these definitions is needed and the finiteness of the inputs is never used.

  The modules: Spec (the update as one function; a dense layer at an entry, on the host and on the matrix unit),
  Region0 and Region1 (each region's output arrays as whole-array functions of what the region was entered with),
  KernelRun (the run with the result named), KernelValue (the four segments composed), RefValue (the reference's
  term is the update), and the claims below.
-/
import proofs.«135996_j16355235463442_1_alg».proof.Defs
import proofs.«135996_j16355235463442_1_alg».proof.Proof.Gen.Kernel
import proofs.«135996_j16355235463442_1_alg».proof.Proof.Gen.Kernel.Frame
import proofs.«135996_j16355235463442_1_alg».proof.Proof.Gen.KernelIdeal
import proofs.«135996_j16355235463442_1_alg».proof.Proof.Gen.KernelIdeal.Frame
import proofs.«135996_j16355235463442_1_alg».proof.Proof.Gen.ReferenceIdeal
import proofs.«135996_j16355235463442_1_alg».proof.Proof.Gen.ReferenceIdeal.Run
import proofs.«135996_j16355235463442_1_alg».proof.Proof.Gen.ReferenceIdeal.Read
import proofs.«135996_j16355235463442_1_alg».proof.Proof.Gen.Pre_finite_inputs
import proofs.«135996_j16355235463442_1_alg».proof.Proof.KernelValue
import proofs.«135996_j16355235463442_1_alg».proof.Proof.RefValue
import Idealize.ShloMosaic.Adequacy
import Idealize.ShloMosaic.Init

noncomputable section

namespace Cert.Proof

open Idealize.ShloMosaic Idealize.ShloMosaic.TcCoe Idealize.SL.Sem Cert.GraphLayer

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two programs aggregate with the same host operations over the same dimension records: one function. -/
theorem agg_eq : Cert.ReferenceIdeal.Hand.agg = Cert.KernelIdeal.Hand.agg := rfl

/-- Both programs end with the two-layer update of the launch contents. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v36_eq,
    Cert.ReferenceIdeal.Hand.result_eq _ _ _ _ _ _ _ _ Cert.KernelIdeal.Gen.shapeCasts_S128_S1x128,
    a0, a1, a2, a3, a4, a5, a6, a7, agg_eq]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
